-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 79
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S850000x1, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x64, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x64, .f32⟩
  | .hbm, ⟨71, _⟩ => ⟨S850000x64, .f32⟩
  | .hbm, ⟨72, _⟩ => ⟨S850000x64, .f32⟩
  | .hbm, ⟨73, _⟩ => ⟨S_, .f32⟩
  | .hbm, ⟨74, _⟩ => ⟨S50000x64, .f32⟩
  | .hbm, ⟨75, _⟩ => ⟨S850000x1, .i32⟩
  | .hbm, ⟨76, _⟩ => ⟨S50000x64, .f32⟩
  | .hbm, ⟨77, _⟩ => ⟨S1x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's whole run, with the result named.

  The program is seven segments in order: the host's preparation of the edge lists and the edge weights,
  the first product, the host's gather / scale / scatter-add, the bias-and-rectify region, the second
  product, the host's second gather / scale / scatter-add, and the last bias region.  Every weakly fair
  execution runs them to the end, and at the end every buffer that outlives the regions holds what the
  fold of the segments over the launch memory leaves in it: in particular the result buffer holds the last
  region's output array, and the six argument arrays are as launched.
-/
import proofs.«157533_j84988812853883_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the last segment
    boundary's contents give it, and the arguments end as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibPlainDot.lean ====
import Idealize.ShloMosaic.PureOps.Ideal.Laws
import Idealize.ShloMosaic.Lib.ValueLayout
import Idealize.ShloMosaic.Lib.ValueIdx

/-!
The host's `dot_general` of a plain matrix product (rows by contraction, times contraction by columns),
read at one entry at the ideal values: the sum over the contracted coordinate of the products of the two
operands' entries — whatever the sizes, whatever the operands' float formats, with no accumulator and no
order of summation left in it.
-/

noncomputable section

namespace Cert.Proof.LibPlainDot

open Idealize.ShloMosaic Idealize.ShloMosaic.ValueIdx

/-- The plain `m × k` by `k × n` host product, at entry `(a, b)`, is `∑ c, A (a, c) * B (c, b)`. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (F := Ideal) (DotDims.plain m k n) prec A B (ix2 a b)
      = ∑ c : Fin k, A (ix2 a c) * B (ix2 c b) := by
  simp only [Host.dotGeneral]
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.Proof.LibPlainDot

end
-- ==== Proof.DenseOne.lean ====
/-
  The first dense layer's product, X · W₁, computed ten row blocks of 5000 at a time.

  Each grid point t loads rows 5000·t … 5000·t + 4999 of X and all of W₁, multiplies them into a zero
  accumulator and writes the product back as the same rows of the result.  On the extended reals the
  narrowing of the operands to bf16 is the identity and the zero accumulator adds nothing, so entry
  (p, q) of a block is Σ_c X(5000·t + p, c) · W₁(c, q): the block is the same rows of the whole product,
  and the ten blocks tile the result.
-/
import proofs.«157533_j84988812853883_1_alg».proof.Proof.Gen.KernelIdeal.Frame
import proofs.«157533_j84988812853883_1_alg».proof.Proof.LibPlainMatmul
import proofs.«157533_j84988812853883_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseOne

open Cert.KernelIdeal Cert.KernelIdeal.Gen Cert.Proof.LibPlainMatmul Cert.Proof.LibPlainDot

variable (V : (c : Dev nD) → (b : Ref sig .tc) → Buf (Elt Ideal) ((c : Thread nD τ).loc b))

/-- The whole product of the node features with the first weight matrix. -/
def prod (x : FVec Ideal S50000x128 .f32) (w : FVec Ideal S128x128 .f32) : FVec Ideal S50000x128 .f32 :=
  Host.dotGeneral (F := Ideal) (DotDims.plain 50000 128 128) none x w

/-- An entry of the whole product is the sum over the contracted coordinate. -/
theorem prod_apply (x : FVec Ideal S50000x128 .f32) (w : FVec Ideal S128x128 .f32) (r : Fin 50000) (q : Fin 128) :
    prod x w (ix2 r q) = ∑ c : Fin 128, x (ix2 r c) * w (ix2 c q) :=
  dotGeneral_plain_apply (φ₁ := .f32) (φ₂ := .f32) none x w r q

/-- An entry of what one grid point stores is the sum over the contracted coordinate of its loaded blocks. -/
theorem stored_apply (x0 : Vec Ideal S5000x128 .f32) (x1 : Vec Ideal S128x128 .f32) (p : Fin 5000) (q : Fin 128) :
    k0_pay1 (F := Ideal) x0 x1 (ix2 p q) = ∑ c : Fin 128, x0 (ix2 p c) * x1 (ix2 c q) := by
  unfold k0_pay1
  exact (matmul_plain_zero_apply (φ₁ := .bf16) (φ₂ := .bf16) none (truncf .bf16 x0 bitsLt_bf16_f32) (truncf .bf16 x1 bitsLt_bf16_f32) p q).trans
    (Finset.sum_congr rfl fun c _ => rfl)

theorem hz : (![0, 0] : Fin 2 → Nat) = fun _ => 0 := funext fun a => by fin_cases a <;> rfl

/-- The printed index maps over the grid: the row-block index is the point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 5000·t + p of the features. -/
theorem x_block (c : Dev nD) (t : Fin cfg0.N) (p : Fin 5000) (k : Fin 128) (r : Fin 50000) (hr : r.val = 5000 * t.val + p.val) :
    iblk0 V c 0 t (ix2 p k) = (V c main_arg0 : FVec Ideal S50000x128 .f32) (ix2 r k) := by
  obtain ⟨e0, e1, -, -, -, -⟩ := idx_facts t
  unfold iblk0
  rw [View.read_apply]
  show (V c main_arg0 : FVec Ideal S50000x128 .f32) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the whole weight matrix. -/
theorem w_block (c : Dev nD) (t : Fin cfg0.N) (k : Fin 128) (q : Fin 128) :
    iblk0 V c 1 t (ix2 k q) = (V c main_arg2 : FVec Ideal S128x128 .f32) (ix2 k q) := by
  obtain ⟨-, -, e2, e3, -, -⟩ := idx_facts t
  unfold iblk0
  rw [View.read_apply]
  show (V c main_arg2 : FVec Ideal S128x128 .f32) _ = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  have ht : t.val < 10 := t.isLt
  have hp : p.val < 5000 := p.isLt
  have hemb : ((cfg0.win 2).blk t).view.emb (ix2 p q) = (ix2 (⟨5000 * t.val + p.val, by omega⟩ : Fin 50000) q : S50000x128.Idx) := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [View.read_apply, hemb, prod_apply]
  refine (stored_apply _ _ p q).trans (Finset.sum_congr rfl fun k _ => ?_)
  rw [x_block V c t p k ⟨5000 * t.val + p.val, by omega⟩ rfl, w_block V c t k q]

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000: the ten blocks cover the result. -/
theorem cover (i : S50000x128.Idx) : ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 10 := rfl
  let t : Fin cfg0.N := ⟨(i 0).val / 5000, by rw [hN]; omega⟩
  obtain ⟨-, -, -, -, e4, e5⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 128 ≤ (i 1).val ∧ (i 1).val < win0_2.index t (1 : Fin 2) * 128 + 128; rw [e5]; omega

/-- After the region the result array holds the whole product of the arrays the region found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.DenseOne

end
-- ==== Proof.DenseTwo.lean ====
/-
  The second dense layer's product, H · W₂, computed ten row blocks of 5000 at a time.

  Each grid point t loads rows 5000·t … 5000·t + 4999 of the hidden features H and all of W₂, multiplies
  them into a zero accumulator and writes the product back as the same rows of the result.  On the
  extended reals the reshape of the loaded block to its own shape and the narrowing of the operands to
  bf16 are the identity and the zero accumulator adds nothing, so entry (p, q) of a block is
  Σ_c H(5000·t + p, c) · W₂(c, q): the block is the same rows of the whole product, and the ten blocks
  tile the result.
-/
import proofs.«157533_j84988812853883_1_alg».proof.Proof.Gen.KernelIdeal.Frame
import proofs.«157533_j84988812853883_1_alg».proof.Proof.LibPlainMatmul
import proofs.«157533_j84988812853883_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseTwo

open Cert.KernelIdeal Cert.KernelIdeal.Gen Cert.Proof.LibPlainMatmul Cert.Proof.LibPlainDot

variable (V : (c : Dev nD) → (b : Ref sig .tc) → Buf (Elt Ideal) ((c : Thread nD τ).loc b))

/-- The whole product of the hidden features with the second weight matrix. -/
def prod (x : FVec Ideal S50000x128 .f32) (w : FVec Ideal S128x64 .f32) : FVec Ideal S50000x64 .f32 :=
  Host.dotGeneral (F := Ideal) (DotDims.plain 50000 128 64) none x w

/-- An entry of the whole product is the sum over the contracted coordinate. -/
theorem prod_apply (x : FVec Ideal S50000x128 .f32) (w : FVec Ideal S128x64 .f32) (r : Fin 50000) (q : Fin 64) :
    prod x w (ix2 r q) = ∑ c : Fin 128, x (ix2 r c) * w (ix2 c q) :=
  dotGeneral_plain_apply (φ₁ := .f32) (φ₂ := .f32) none x w r q

/-- An entry of what one grid point stores is the sum over the contracted coordinate of its loaded blocks. -/
theorem stored_apply (x0 : Vec Ideal S5000x128 .f32) (x1 : Vec Ideal S128x64 .f32) (p : Fin 5000) (q : Fin 64) :
    k2_pay1 (F := Ideal) x0 x1 (ix2 p q) = ∑ c : Fin 128, x0 (ix2 p c) * x1 (ix2 c q) := by
  unfold k2_pay1
  exact (matmul_plain_zero_apply (φ₁ := .bf16) (φ₂ := .bf16) none
      (truncf .bf16 (shapeCast S5000x128 x0 shapeCasts_S5000x128_S5000x128) bitsLt_bf16_f32) (truncf .bf16 x1 bitsLt_bf16_f32) p q).trans
    (Finset.sum_congr rfl fun c _ =>
      congrArg (· * x1 (ix2 c q)) (congrFun (shapeCast_self (x0 : S5000x128.Idx → EReal) shapeCasts_S5000x128_S5000x128) (ix2 p c)))

theorem hz : (![0, 0] : Fin 2 → Nat) = fun _ => 0 := funext fun a => by fin_cases a <;> rfl

/-- The printed index maps over the grid: the row-block index is the point, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the features' block at point t is row 5000·t + p of the features. -/
theorem x_block (c : Dev nD) (t : Fin cfg2.N) (p : Fin 5000) (k : Fin 128) (r : Fin 50000) (hr : r.val = 5000 * t.val + p.val) :
    iblk2 V c 0 t (ix2 p k) = (V c main_v44 : FVec Ideal S50000x128 .f32) (ix2 r k) := by
  obtain ⟨e0, e1, -, -, -, -⟩ := idx_facts t
  unfold iblk2
  rw [View.read_apply]
  show (V c main_v44 : FVec Ideal S50000x128 .f32) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weights' block at every point is the whole weight matrix. -/
theorem w_block (c : Dev nD) (t : Fin cfg2.N) (k : Fin 128) (q : Fin 64) :
    iblk2 V c 1 t (ix2 k q) = (V c main_arg4 : FVec Ideal S128x64 .f32) (ix2 k q) := by
  obtain ⟨-, -, e2, e3, -, -⟩ := idx_facts t
  unfold iblk2
  rw [View.read_apply]
  show (V c main_arg4 : FVec Ideal S128x64 .f32) _ = _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- What point t writes back is block t of the whole product of the arrays the region finds. -/
theorem flushed_eq (c : Dev nD) (t : Fin cfg2.N) :
    (dat2 V c).flushed 2 t = ((cfg2.win 2).blk t).view.read (Elt Ideal) (prod (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e4, e5⟩ := idx_facts t
  funext j
  obtain ⟨p, q, rfl⟩ : ∃ (p : Fin 5000) (q : Fin 64), j = ix2 p q := ⟨j 0, j 1, eq_ix2 j⟩
  have ht : t.val < 10 := t.isLt
  have hp : p.val < 5000 := p.isLt
  have hemb : ((cfg2.win 2).blk t).view.emb (ix2 p q) = (ix2 (⟨5000 * t.val + p.val, by omega⟩ : Fin 50000) q : S50000x64.Idx) := by
    funext a; apply Fin.ext
    match a with
    | ⟨0, _⟩ => show win2_2.index t (0 : Fin 2) * 5000 + 1 * p.val = 5000 * t.val + p.val; rw [e4]; omega
    | ⟨1, _⟩ => show win2_2.index t (1 : Fin 2) * 64 + 1 * q.val = q.val; rw [e5]; omega
  rw [View.read_apply, hemb, prod_apply]
  refine (stored_apply _ _ p q).trans (Finset.sum_congr rfl fun k _ => ?_)
  rw [x_block V c t p k ⟨5000 * t.val + p.val, by omega⟩ rfl, w_block V c t k q]

/-- An index of the result is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row r lies in the block of point r / 5000: the ten blocks cover the result. -/
theorem cover (i : S50000x64.Idx) : ∃ t : Fin cfg2.N, (cfg2.win 2).flush t = true ∧ i ∈ ((cfg2.win 2).blk t).view.set := by
  have h0 : (i 0).val < 50000 := (i 0).isLt
  have h1 : (i 1).val < 64 := (i 1).isLt
  have hN : cfg2.N = 10 := rfl
  let t : Fin cfg2.N := ⟨(i 0).val / 5000, by rw [hN]; omega⟩
  obtain ⟨-, -, -, -, e4, e5⟩ := idx_facts t
  have htv : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, htv]; omega
  | ⟨1, _⟩ => show win2_2.index t (1 : Fin 2) * 64 ≤ (i 1).val ∧ (i 1).val < win2_2.index t (1 : Fin 2) * 64 + 64; rw [e5]; omega

/-- After the region the result array holds the whole product of the arrays the region found. -/
theorem final (c : Dev nD) : (dat2 V c).arrAt 2 cfg2.N = prod (V c main_v44) (V c main_arg4) :=
  (dat2 V c).arrAt_eq_of_cover 2 (prod (V c main_v44) (V c main_arg4)) (fun t _ => flushed_eq V c t) cover

end Cert.KernelIdeal.DenseTwo

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.LibFrontReads.lean ====
import Idealize.ShloMosaic.Lib.ValueIdx
import Idealize.ShloMosaic.Lib.Pipeline.Value
import Idealize.ShloMosaic.PureOps.Ideal.Laws

noncomputable section

/-!
General readings used by the front and decode value proofs, at arbitrary sizes: a matrix product into a zero
accumulator is the host's product; a vector seen as a row by a reshape is the vector broadcast to a row; a row seen
as a one-row block by a reshape is the row broadcast along a new middle axis; the keep-dimension form of a
one-entry vector (reshape to 1 × 1, repeat along the row) is the host's two broadcasts; a lane maximum and a lane
sum are the host's reductions; a scalar taken out of a 1 × 1 block and splat is the host's broadcast of the
reshaped block.
-/
namespace Cert.Proof.FrontLib
open Idealize.ShloMosaic Idealize.ShloMosaic.ValueIdx
open scoped BigOperators

variable {α : Type}

/-- A matrix product accumulated into the zero splat is the host's product of the same operands. -/
theorem matmul_zero_eq_dotGeneral {sl sr so : Shape} {φ₁ φ₂ : FTy} (d : DotDims sl sr so) (prec : Option ContractPrecision)
    (lhs : FVec Ideal sl φ₁) (rhs : FVec Ideal sr φ₂) :
    matmul (F := Ideal) d prec lhs rhs (constant (F := Ideal) so .f32 0x00000000#32)
      = Host.dotGeneral (F := Ideal) d prec lhs rhs :=
  funext fun j => by
    show FloatOps.matmul d prec lhs rhs (constant (F := Ideal) so .f32 0x00000000#32) j = FloatOps.dotGeneral d prec .single lhs rhs j
    rw [Ideal.matmul_constant_zero_apply, Ideal.dotGeneral_apply]

/-- A vector of n entries reshaped to a row is the vector broadcast to a row: entry c at (0, c) either way. -/
theorem asRow_eq_broadcast {n : Nat} (h : (⟨1, ![n]⟩ : Shape).ShapeCasts ⟨2, ![1, n]⟩)
    (h' : (⟨1, ![n]⟩ : Shape).BroadcastsInDim ⟨2, ![1, n]⟩ (![1] : Fin 1 → Fin 2)) (x : (⟨1, ![n]⟩ : Shape).Idx → α) :
    shapeCast (⟨2, ![1, n]⟩ : Shape) x h = broadcastInDim (⟨2, ![1, n]⟩ : Shape) ![1] h' x := by
  funext j
  obtain ⟨p, c, rfl⟩ : ∃ (p : Fin 1) (c : Fin n), j = ix2 p c := ⟨j 0, j 1, eq_ix2 j⟩
  obtain rfl : p = 0 := Subsingleton.elim _ _
  have e1 : shapeCast (⟨2, ![1, n]⟩ : Shape) x h (ix2 (0 : Fin 1) c) = x (ix1 c) :=
    shapeCast_apply x h _ (ix1 c) (by
      rw [Shape.rowMajor_val_one, Shape.rowMajor_val_two]
      show c.val = 0 * n + c.val
      omega)
  have e2 : broadcastInDim (⟨2, ![1, n]⟩ : Shape) ![1] h' x (ix2 (0 : Fin 1) c) = x (ix1 c) :=
    broadcastInDim_apply _ h' x _ (ix1 c) (fun a => match a with
      | ⟨0, _⟩ => by
        show c.val = if n = 1 then 0 else c.val
        split
        · have := c.isLt; omega
        · rfl)
  rw [e1, e2]

/-- A row of n entries reshaped to a 1 × 1 × n block is the row broadcast along a new middle axis. -/
theorem asBlock_eq_broadcast {n : Nat} (h : (⟨2, ![1, n]⟩ : Shape).ShapeCasts ⟨3, ![1, 1, n]⟩)
    (h' : (⟨2, ![1, n]⟩ : Shape).BroadcastsInDim ⟨3, ![1, 1, n]⟩ (![0, 2] : Fin 2 → Fin 3)) (x : (⟨2, ![1, n]⟩ : Shape).Idx → α) :
    shapeCast (⟨3, ![1, 1, n]⟩ : Shape) x h = broadcastInDim (⟨3, ![1, 1, n]⟩ : Shape) ![0, 2] h' x := by
  funext j
  obtain ⟨p, q, c, rfl⟩ : ∃ (p : Fin 1) (q : Fin 1) (c : Fin n), j = ix3 p q c := ⟨j 0, j 1, j 2, eq_ix3 j⟩
  obtain rfl : p = 0 := Subsingleton.elim _ _
  obtain rfl : q = 0 := Subsingleton.elim _ _
  have e1 : shapeCast (⟨3, ![1, 1, n]⟩ : Shape) x h (ix3 (0 : Fin 1) (0 : Fin 1) c) = x (ix2 (0 : Fin 1) c) :=
    shapeCast_apply x h _ (ix2 (0 : Fin 1) c) (by
      rw [Shape.rowMajor_val_two, Shape.rowMajor_val_three]
      show 0 * n + c.val = (0 * 1 + 0) * n + c.val
      omega)
  have e2 : broadcastInDim (⟨3, ![1, 1, n]⟩ : Shape) ![0, 2] h' x (ix3 (0 : Fin 1) (0 : Fin 1) c) = x (ix2 (0 : Fin 1) c) :=
    broadcastInDim_apply _ h' x _ (ix2 (0 : Fin 1) c) (fun a => match a with
      | ⟨0, _⟩ => by
        show 0 = if (1 : Nat) = 1 then 0 else 0
        rw [if_pos rfl]
      | ⟨1, _⟩ => by
        show c.val = if n = 1 then 0 else c.val
        split
        · have := c.isLt; omega
        · rfl)
  rw [e1, e2]

/-- The keep-dimension form of a one-entry vector: reshaped to 1 × 1 and repeated along a row of n, it is the
    host's two broadcasts of the same vector; every entry of the row is the one entry. -/
theorem keepdims_eq_broadcasts {n : Nat} (h1 : (⟨1, ![1]⟩ : Shape).ShapeCasts ⟨2, ![1, 1]⟩)
    (h2 : (⟨2, ![1, 1]⟩ : Shape).Broadcasts ⟨2, ![1, n]⟩)
    (h3 : (⟨2, ![1, 1]⟩ : Shape).BroadcastsInDim ⟨2, ![1, n]⟩ (![0, 1] : Fin 2 → Fin 2))
    (h4 : (⟨1, ![1]⟩ : Shape).BroadcastsInDim ⟨2, ![1, 1]⟩ (![0] : Fin 1 → Fin 2))
    (v : (⟨1, ![1]⟩ : Shape).Idx → α) :
    broadcastTo (⟨2, ![1, n]⟩ : Shape) (shapeCast (⟨2, ![1, 1]⟩ : Shape) v h1) h2
      = broadcastInDim (⟨2, ![1, n]⟩ : Shape) ![0, 1] h3 (broadcastInDim (⟨2, ![1, 1]⟩ : Shape) ![0] h4 v) := by
  funext j
  have e1 : broadcastTo (⟨2, ![1, n]⟩ : Shape) (shapeCast (⟨2, ![1, 1]⟩ : Shape) v h1) h2 j
      = shapeCast (⟨2, ![1, 1]⟩ : Shape) v h1 (ix2 (0 : Fin 1) (0 : Fin 1)) :=
    broadcastTo_apply _ h2 j (ix2 (0 : Fin 1) (0 : Fin 1)) (fun a => match a with
      | ⟨0, _⟩ => by
        show 0 = if (1 : Nat) = 1 then 0 else _
        rw [if_pos rfl]
      | ⟨1, _⟩ => by
        show 0 = if (1 : Nat) = 1 then 0 else _
        rw [if_pos rfl])
  have e2 : shapeCast (⟨2, ![1, 1]⟩ : Shape) v h1 (ix2 (0 : Fin 1) (0 : Fin 1)) = v (ix1 (0 : Fin 1)) :=
    shapeCast_apply v h1 _ (ix1 (0 : Fin 1)) (by
      rw [Shape.rowMajor_val_one, Shape.rowMajor_val_two]
      show 0 = 0 * 1 + 0
      omega)
  have e3 : broadcastInDim (⟨2, ![1, n]⟩ : Shape) ![0, 1] h3 (broadcastInDim (⟨2, ![1, 1]⟩ : Shape) ![0] h4 v) j
      = broadcastInDim (⟨2, ![1, 1]⟩ : Shape) ![0] h4 v (ix2 (0 : Fin 1) (0 : Fin 1)) :=
    broadcastInDim_apply _ h3 _ j (ix2 (0 : Fin 1) (0 : Fin 1)) (fun a => match a with
      | ⟨0, _⟩ => by
        show 0 = if (1 : Nat) = 1 then 0 else _
        rw [if_pos rfl]
      | ⟨1, _⟩ => by
        show 0 = if (1 : Nat) = 1 then 0 else _
        rw [if_pos rfl])
  have e4 : broadcastInDim (⟨2, ![1, 1]⟩ : Shape) ![0] h4 v (ix2 (0 : Fin 1) (0 : Fin 1)) = v (ix1 (0 : Fin 1)) :=
    broadcastInDim_apply _ h4 v _ (ix1 (0 : Fin 1)) (fun a => match a with
      | ⟨0, _⟩ => by
        show 0 = if (1 : Nat) = 1 then 0 else _
        rw [if_pos rfl])
  rw [e1, e2, e3, e4]

/-- A lane maximum over one axis, from the word `acc`, is the host's maximum reduction over that axis from the
    scalar constant of the same word. -/
theorem laneMax_eq_hostMax {s t : Shape} {a : Fin s.rank} (src : FVec Ideal s .f32) (acc : BitVec 32)
    (h : s.Reduces [a] t) (h' : s.ReducesTo [a] t) (hφ : FKind.Formats .f32) (hacc : acc = FKind.maximumf.neutral .f32 hφ)
    (hu : 0 < (⟨0, ![]⟩ : Shape).numel) :
    multiReduction (F := Ideal) .maximumf [a] t src acc h hφ hacc
      = Host.reduce FloatOps.maximumf src (constant (F := Ideal) (⟨0, ![]⟩ : Shape) .f32 acc) h' hu := by
  funext j
  rw [Ideal.multiReduction_maximumf_single, Host.reduce_eq_fold_single FloatOps.maximumf src _ h' h hu]
  rfl

/-- A lane sum over one axis, from the zero word, is the host's sum over that axis from the scalar zero. -/
theorem laneSum_eq_hostSum {s t : Shape} {a : Fin s.rank} (src : FVec Ideal s .f32)
    (h : s.Reduces [a] t) (h' : s.ReducesTo [a] t) (hφ : FKind.Formats .f32)
    (hacc : (0x00000000#32 : BitVec 32) = FKind.add.neutral .f32 hφ) (hu : 0 < (⟨0, ![]⟩ : Shape).numel) :
    multiReduction (F := Ideal) .add [a] t src 0x00000000#32 h hφ hacc
      = Host.reduceAdd (F := Ideal) src (constant (F := Ideal) (⟨0, ![]⟩ : Shape) .f32 0x00000000#32) h' hu := by
  funext j
  rw [Ideal.multiReduction_add_single]
  simp only [Host.reduceAdd, Ideal.hostReduceAdd_def]
  rw [Ideal.hostReduceAdd_single h' h]
  show _ = Ideal.ofBits .f32 0x00000000#32 + _
  rw [Ideal.ofBits_zero_f32, zero_add]

/-- The one entry of a 1 × 1 block, taken out and splat over a shape, is the host's broadcast of the block
    reshaped to a scalar. -/
theorem splat_extract_eq (t : Shape) (x : (⟨2, ![1, 1]⟩ : Shape).Idx → α)
    (hp : ∀ a, (![0, 0] : Fin 2 → Nat) a < (⟨2, ![1, 1]⟩ : Shape).size a)
    (hc : (⟨2, ![1, 1]⟩ : Shape).ShapeCasts ⟨0, ![]⟩)
    (hb : (⟨0, ![]⟩ : Shape).BroadcastsInDim t (![] : Fin 0 → Fin t.rank)) :
    broadcast t (extractAt ![0, 0] x hp) = broadcastInDim t ![] hb (shapeCast (⟨0, ![]⟩ : Shape) x hc) := by
  funext j
  have e1 : broadcastInDim t ![] hb (shapeCast (⟨0, ![]⟩ : Shape) x hc) j = shapeCast (⟨0, ![]⟩ : Shape) x hc ix0 :=
    broadcastInDim_apply _ hb _ j ix0 (fun a => a.elim0)
  have e2 : shapeCast (⟨0, ![]⟩ : Shape) x hc ix0 = x (ix2 (0 : Fin 1) (0 : Fin 1)) :=
    shapeCast_apply x hc _ (ix2 (0 : Fin 1) (0 : Fin 1)) (by
      have h0 := ((⟨0, ![]⟩ : Shape).rowMajor ix0).isLt
      have h1 : (⟨0, ![]⟩ : Shape).numel = 1 := rfl
      rw [Shape.rowMajor_val_two]
      show 0 * 1 + 0 = _
      omega)
  rw [e1, e2]
  show x _ = x _
  refine congrArg x (funext fun a => ?_)
  match a with
  | ⟨0, _⟩ => rfl
  | ⟨1, _⟩ => rfl

end Cert.Proof.FrontLib

end
-- ==== Proof.LibHostForms.lean ====
import Idealize.ShloMosaic.Lib.ValueIdx
import Idealize.ShloMosaic.Lib.Pipeline.Value
import Idealize.ShloMosaic.PureOps.Ideal.Laws
import proofs.«157533_j84988812853883_1_alg».proof.Proof.LibFrontReads

noncomputable section

/-!
A kernel's spelling of a dense layer against the host's, at the ideal values and arbitrary sizes.

* A matrix product of operands first rounded to a narrower format, accumulated into the zero matrix, is the
  host's product of the unrounded operands: on the extended reals a change of format is the identity, and the
  zero accumulator adds nothing.
* A block repeated along its unit axes up to a matrix of the same rank (the kernel's trailing-axes broadcast) is
  the host's broadcast along the axes `0, 1`.
* A scalar word splat over a shape is the host's broadcast of the rank-0 constant of that word.
-/
namespace Cert.Proof.LibHostForms
open Idealize.ShloMosaic Idealize.ShloMosaic.ValueIdx
open scoped BigOperators

variable {α : Type}

/-- The product of two rounded operands into the zero accumulator is the host's product of the operands. -/
theorem matmul_rounded_zero_eq_dotGeneral {sl sr so : Shape} {φ₁ φ₂ ψ₁ ψ₂ : FTy} (d : DotDims sl sr so)
    (prec : Option ContractPrecision) (lhs : FVec Ideal sl φ₁) (rhs : FVec Ideal sr φ₂)
    (h₁ : ψ₁.bits < φ₁.bits) (h₂ : ψ₂.bits < φ₂.bits) :
    matmul (F := Ideal) d prec (truncf ψ₁ lhs h₁) (truncf ψ₂ rhs h₂) (constant (F := Ideal) so .f32 0x00000000#32)
      = Host.dotGeneral (F := Ideal) d prec lhs rhs :=
  funext fun j => by
    show FloatOps.matmul d prec (truncf ψ₁ lhs h₁) (truncf ψ₂ rhs h₂) (constant (F := Ideal) so .f32 0x00000000#32) j
      = FloatOps.dotGeneral d prec .single lhs rhs j
    rw [Ideal.matmul_constant_zero_apply, Ideal.dotGeneral_apply]
    rfl

/-- Between two matrices the trailing-axes broadcast is the host's broadcast along the axes `0, 1`: either way
    entry `(p, q)` reads the operand at `(p, q)`, with `0` on each unit axis of the operand. -/
theorem broadcastTo_eq_broadcastInDim {a b a' b' : Nat}
    (h : (⟨2, ![a', b']⟩ : Shape).Broadcasts ⟨2, ![a, b]⟩)
    (h' : (⟨2, ![a', b']⟩ : Shape).BroadcastsInDim ⟨2, ![a, b]⟩ (![0, 1] : Fin 2 → Fin 2))
    (x : (⟨2, ![a', b']⟩ : Shape).Idx → α) :
    broadcastTo (⟨2, ![a, b]⟩ : Shape) x h = broadcastInDim (⟨2, ![a, b]⟩ : Shape) ![0, 1] h' x := by
  funext j
  unfold broadcastTo broadcastInDim
  refine congrArg x (funext fun ax => ?_)
  match ax with
  | ⟨0, _⟩ => rfl
  | ⟨1, _⟩ => rfl

/-- A scalar word splat over a shape is the host's broadcast of the rank-0 constant of that word. -/
theorem splat_eq_broadcastInDim (t : Shape) (φ : FTy) (w : BitVec φ.bits)
    (h : (⟨0, ![]⟩ : Shape).BroadcastsInDim t (![] : Fin 0 → Fin t.rank)) :
    broadcast t (Scalar.ofBits (F := Ideal) φ w) = broadcastInDim t ![] h (constant (F := Ideal) (⟨0, ![]⟩ : Shape) φ w) :=
  rfl

/-! ### The same three, with the host side's side condition derived from the kernel side's

so that each is a rewriting rule from the kernel's spelling to the host's whose right side is determined by its left. -/

/-- A shape that broadcasts to a matrix of its own rank broadcasts to it along the axes `0, 1`. -/
theorem inDim01_of_broadcasts {a b a' b' : Nat} (h : (⟨2, ![a', b']⟩ : Shape).Broadcasts ⟨2, ![a, b]⟩) :
    (⟨2, ![a', b']⟩ : Shape).BroadcastsInDim ⟨2, ![a, b]⟩ (![0, 1] : Fin 2 → Fin 2) :=
  ⟨fun x y hxy => by
      have e : (![0, 1] : Fin 2 → Fin 2) = id := funext fun ax => by
        match ax with
        | ⟨0, _⟩ => rfl
        | ⟨1, _⟩ => rfl
      rw [e] at hxy; exact hxy,
   fun ax => match ax with
    | ⟨0, _⟩ => (h.2 0).imp id (fun f => f (show (0 : Nat) + (2 - 2) < 2 by decide))
    | ⟨1, _⟩ => (h.2 1).imp id (fun f => f (show (1 : Nat) + (2 - 2) < 2 by decide))⟩

/-- The rank-0 shape broadcasts to every shape along no axis. -/
theorem scalarInDim (t : Shape) : (⟨0, ![]⟩ : Shape).BroadcastsInDim t (![] : Fin 0 → Fin t.rank) :=
  ⟨fun x => x.elim0, fun ax => ax.elim0⟩

/-- A vector of `n` entries broadcasts to a one-row matrix along the axis `1`. -/
theorem rowInDim (n : Nat) : (⟨1, ![n]⟩ : Shape).BroadcastsInDim ⟨2, ![1, n]⟩ (![1] : Fin 1 → Fin 2) :=
  ⟨fun _ _ _ => Subsingleton.elim _ _, fun ax => Or.inr (match ax with | ⟨0, _⟩ => rfl)⟩

theorem broadcastTo_eq_broadcastInDim' {a b a' b' : Nat} (h : (⟨2, ![a', b']⟩ : Shape).Broadcasts ⟨2, ![a, b]⟩)
    (x : (⟨2, ![a', b']⟩ : Shape).Idx → α) :
    broadcastTo (⟨2, ![a, b]⟩ : Shape) x h = broadcastInDim (⟨2, ![a, b]⟩ : Shape) ![0, 1] (inDim01_of_broadcasts h) x :=
  broadcastTo_eq_broadcastInDim h _ x

theorem splat_eq_broadcastInDim' (t : Shape) (φ : FTy) (w : BitVec φ.bits) :
    broadcast t (Scalar.ofBits (F := Ideal) φ w)
      = broadcastInDim t ![] (scalarInDim t) (constant (F := Ideal) (⟨0, ![]⟩ : Shape) φ w) :=
  rfl

/-- A vector reshaped to a one-row matrix is the vector broadcast to the row. -/
theorem asRow_eq_broadcast' {n : Nat} (h : (⟨1, ![n]⟩ : Shape).ShapeCasts ⟨2, ![1, n]⟩) (x : (⟨1, ![n]⟩ : Shape).Idx → α) :
    shapeCast (⟨2, ![1, n]⟩ : Shape) x h = broadcastInDim (⟨2, ![1, n]⟩ : Shape) ![1] (rowInDim n) x :=
  Cert.Proof.FrontLib.asRow_eq_broadcast h (rowInDim n) x

end Cert.Proof.LibHostForms

end
-- ==== Proof.LibBiasRows.lean ====
import Idealize.ShloMosaic.Lib.ValueIdx
import Idealize.ShloMosaic.Lib.Pipeline.Value
import Idealize.ShloMosaic.PureOps.Ideal.Laws
import proofs.«157533_j84988812853883_1_alg».proof.Proof.LibBroadcasts
import proofs.«157533_j84988812853883_1_alg».proof.Proof.LibHostForms

noncomputable section

/-!
A bias row added to every row of a matrix, optionally followed by the maximum with zero, at the ideal values and
arbitrary sizes.

* In the host's spelling — the row repeated down the matrix by a broadcast along the axes `0, 1`, the zero a rank-0
  constant broadcast to the matrix — entry `(r, k)` is `a (r, k) + b (0, k)`, respectively its maximum with the
  constant's value.
* A kernel body's spelling of the same two — identity reshapes of the loaded blocks, the trailing-axes broadcast of the
  row, a splat scalar word — IS the host's spelling on the block.
-/
namespace Cert.Proof.LibBiasRows
open Idealize.ShloMosaic Idealize.ShloMosaic.ValueIdx

/-- The host's `a + b` with the one-row `b` repeated down the rows. -/
def addRow {n q : Nat} (hrep : (⟨2, ![1, q]⟩ : Shape).BroadcastsInDim ⟨2, ![n, q]⟩ (![0, 1] : Fin 2 → Fin 2))
    (a : FVec Ideal ⟨2, ![n, q]⟩ .f32) (b : FVec Ideal ⟨2, ![1, q]⟩ .f32) : FVec Ideal ⟨2, ![n, q]⟩ .f32 :=
  addf a (broadcastInDim (⟨2, ![n, q]⟩ : Shape) ![0, 1] hrep b)

/-- The host's `max (a + b, 0)`, the zero the rank-0 constant of the all-zero word broadcast to the matrix. -/
def addRowRect {n q : Nat} (hrep : (⟨2, ![1, q]⟩ : Shape).BroadcastsInDim ⟨2, ![n, q]⟩ (![0, 1] : Fin 2 → Fin 2))
    (hsc : (⟨0, ![]⟩ : Shape).BroadcastsInDim ⟨2, ![n, q]⟩ (![] : Fin 0 → Fin 2))
    (a : FVec Ideal ⟨2, ![n, q]⟩ .f32) (b : FVec Ideal ⟨2, ![1, q]⟩ .f32) : FVec Ideal ⟨2, ![n, q]⟩ .f32 :=
  maximumf (addRow hrep a b)
    (broadcastInDim (⟨2, ![n, q]⟩ : Shape) ![] hsc (constant (F := Ideal) (⟨0, ![]⟩ : Shape) .f32 0x00000000#32))

/-- Entry `(r, k)` of `a` plus the repeated row is `a (r, k) + b (0, k)`. -/
theorem addRow_apply {n q : Nat} (hrep : (⟨2, ![1, q]⟩ : Shape).BroadcastsInDim ⟨2, ![n, q]⟩ (![0, 1] : Fin 2 → Fin 2))
    (a : FVec Ideal ⟨2, ![n, q]⟩ .f32) (b : FVec Ideal ⟨2, ![1, q]⟩ .f32) (r : Fin n) (k : Fin q) :
    addRow hrep a b (ix2 r k) = FloatOps.addf (a (ix2 r k)) (b (ix2 (0 : Fin 1) k)) := by
  show FloatOps.addf (a (ix2 r k)) (broadcastInDim (⟨2, ![n, q]⟩ : Shape) ![0, 1] hrep b (ix2 r k)) = _
  rw [Broadcasts.repeat_apply]

/-- Entry `(r, k)` of the rectified sum is the maximum of `a (r, k) + b (0, k)` and the zero constant's value. -/
theorem addRowRect_apply {n q : Nat} (hrep : (⟨2, ![1, q]⟩ : Shape).BroadcastsInDim ⟨2, ![n, q]⟩ (![0, 1] : Fin 2 → Fin 2))
    (hsc : (⟨0, ![]⟩ : Shape).BroadcastsInDim ⟨2, ![n, q]⟩ (![] : Fin 0 → Fin 2))
    (a : FVec Ideal ⟨2, ![n, q]⟩ .f32) (b : FVec Ideal ⟨2, ![1, q]⟩ .f32) (r : Fin n) (k : Fin q) :
    addRowRect hrep hsc a b (ix2 r k)
      = FloatOps.maximumf (FloatOps.addf (a (ix2 r k)) (b (ix2 (0 : Fin 1) k)))
          (constant (F := Ideal) (⟨0, ![]⟩ : Shape) .f32 0x00000000#32 ix0) := by
  show FloatOps.maximumf (addRow hrep a b (ix2 r k))
      (broadcastInDim (⟨2, ![n, q]⟩ : Shape) ![] hsc (constant (F := Ideal) (⟨0, ![]⟩ : Shape) .f32 0x00000000#32) (ix2 r k)) = _
  rw [addRow_apply, Broadcasts.scalar_apply]

/-- A body's `reshape a + broadcast (reshape b)`, both reshapes between equal shapes, is the host's sum on the block. -/
theorem body_addRow {n q : Nat} (ha : (⟨2, ![n, q]⟩ : Shape).ShapeCasts ⟨2, ![n, q]⟩) (hb : (⟨2, ![1, q]⟩ : Shape).ShapeCasts ⟨2, ![1, q]⟩)
    (hbc : (⟨2, ![1, q]⟩ : Shape).Broadcasts ⟨2, ![n, q]⟩)
    (hrep : (⟨2, ![1, q]⟩ : Shape).BroadcastsInDim ⟨2, ![n, q]⟩ (![0, 1] : Fin 2 → Fin 2))
    (a : FVec Ideal ⟨2, ![n, q]⟩ .f32) (b : FVec Ideal ⟨2, ![1, q]⟩ .f32) :
    addf (shapeCast (⟨2, ![n, q]⟩ : Shape) a ha) (broadcastTo (⟨2, ![n, q]⟩ : Shape) (shapeCast (⟨2, ![1, q]⟩ : Shape) b hb) hbc)
      = addRow hrep a b := by
  rw [shapeCast_self, shapeCast_self, Cert.Proof.LibHostForms.broadcastTo_eq_broadcastInDim hbc hrep]
  rfl

/-- The same followed by the maximum with a splat zero word is the host's rectified sum on the block. -/
theorem body_addRowRect {n q : Nat} (ha : (⟨2, ![n, q]⟩ : Shape).ShapeCasts ⟨2, ![n, q]⟩) (hb : (⟨2, ![1, q]⟩ : Shape).ShapeCasts ⟨2, ![1, q]⟩)
    (hbc : (⟨2, ![1, q]⟩ : Shape).Broadcasts ⟨2, ![n, q]⟩)
    (hrep : (⟨2, ![1, q]⟩ : Shape).BroadcastsInDim ⟨2, ![n, q]⟩ (![0, 1] : Fin 2 → Fin 2))
    (hsc : (⟨0, ![]⟩ : Shape).BroadcastsInDim ⟨2, ![n, q]⟩ (![] : Fin 0 → Fin 2))
    (a : FVec Ideal ⟨2, ![n, q]⟩ .f32) (b : FVec Ideal ⟨2, ![1, q]⟩ .f32) :
    maximumf (addf (shapeCast (⟨2, ![n, q]⟩ : Shape) a ha) (broadcastTo (⟨2, ![n, q]⟩ : Shape) (shapeCast (⟨2, ![1, q]⟩ : Shape) b hb) hbc))
        (broadcast (⟨2, ![n, q]⟩ : Shape) (Scalar.ofBits (F := Ideal) .f32 0x00000000#32))
      = addRowRect hrep hsc a b := by
  rw [body_addRow ha hb hbc hrep]
  rfl

end Cert.Proof.LibBiasRows

end
-- ==== Proof.BiasOne.lean ====
/-
  The first layer's bias and rectification, ten row blocks of 5000 at a time.

  Each grid point t loads rows 5000·t … 5000·t + 4999 of the aggregated messages and the bias as a one-row
  matrix, adds the row to every loaded row and takes the maximum with zero, and writes the block back as the same rows of the
  result.  Entry (p, q) of a block is max (A(5000·t + p, q) + b(0, q), 0), an expression of entry (5000·t + p, q) of the
  messages and entry (0, q) of the bias row only: the block is the same rows of the whole-array expression, and the
  ten blocks tile the result.
-/
import proofs.«157533_j84988812853883_1_alg».proof.Proof.Gen.KernelIdeal.Frame
import proofs.«157533_j84988812853883_1_alg».proof.Proof.LibBiasRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasOne

open Cert.KernelIdeal Cert.KernelIdeal.Gen Cert.Proof.LibBiasRows

variable (V : (c : Dev nD) → (b : Ref sig .tc) → Buf (Elt Ideal) ((c : Thread nD τ).loc b))

theorem repeats : S1x128.BroadcastsInDim S50000x128 (![0, 1] : Fin 2 → Fin 2) := by decide
theorem repeatsBlock : S1x128.BroadcastsInDim S5000x128 (![0, 1] : Fin 2 → Fin 2) := by decide
theorem splats : S_.BroadcastsInDim S50000x128 (![] : Fin 0 → Fin 2) := by decide
theorem splatsBlock : S_.BroadcastsInDim S5000x128 (![] : Fin 0 → Fin 2) := by decide

/-- The whole-array expression: the bias row added to every row of the messages and takes the maximum with zero. -/
def biased (a : FVec Ideal S50000x128 .f32) (b : FVec Ideal S1x128 .f32) : FVec Ideal S50000x128 .f32 :=
  addRowRect repeats splats a b

/-- What one grid point stores is the same expression of its loaded blocks. -/
theorem stored_eq (x0 : Vec Ideal S5000x128 .f32) (x1 : Vec Ideal S1x128 .f32) :
    k1_pay1 (F := Ideal) x0 x1 = addRowRect repeatsBlock splatsBlock x0 x1 := by
  unfold k1_pay1
  exact body_addRowRect shapeCasts_S5000x128_S5000x128 shapeCasts_S1x128_S1x128 broadcasts_S1x128_S5000x128 repeatsBlock splatsBlock x0 x1

theorem hz : (![0, 0] : Fin 2 → Nat) = fun _ => 0 := funext fun a => by fin_cases a <;> rfl

/-- The printed index maps over the grid: the row-block index is the point, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the messages' block at point t is row 5000·t + p of the messages. -/
theorem a_block (c : Dev nD) (t : Fin cfg1.N) (p : Fin 5000) (q : Fin 128) (r : Fin 50000) (hr : r.val = 5000 * t.val + p.val) :
    iblk1 V c 0 t (ix2 p q) = (V c main_v42 : FVec Ideal S50000x128 .f32) (ix2 r q) := by
  obtain ⟨e0, e1, -, -, -, -⟩ := idx_facts t
  unfold iblk1
  rw [View.read_apply]
  show (V c main_v42 : FVec Ideal S50000x128 .f32) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The bias row's block at every point is the whole row. -/
theorem b_block (c : Dev nD) (t : Fin cfg1.N) (q : Fin 128) :
    iblk1 V c 1 t (ix2 (0 : Fin 1) q) = (V c main_v43 : FVec Ideal S1x128 .f32) (ix2 (0 : Fin 1) q) := by
  obtain ⟨-, -, e2, e3, -, -⟩ := idx_facts t
  unfold iblk1
  rw [View.read_apply]
  show (V c main_v43 : FVec Ideal S1x128 .f32) _ = _
  refine congrArg _ (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point t writes back is block t of the whole-array expression of the arrays the region finds. -/
theorem flushed_eq (c : Dev nD) (t : Fin cfg1.N) :
    (dat1 V c).flushed 2 t = ((cfg1.win 2).blk t).view.read (Elt Ideal) (biased (V c main_v42) (V c main_v43)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts t
  funext j
  obtain ⟨p, q, rfl⟩ : ∃ (p : Fin 5000) (q : Fin 128), j = ix2 p q := ⟨j 0, j 1, eq_ix2 j⟩
  have ht : t.val < 10 := t.isLt
  have hp : p.val < 5000 := p.isLt
  have hemb : ((cfg1.win 2).blk t).view.emb (ix2 p q) = (ix2 (⟨5000 * t.val + p.val, by omega⟩ : Fin 50000) q : S50000x128.Idx) := by
    funext a; apply Fin.ext
    match a with
    | ⟨0, _⟩ => show win1_2.index t (0 : Fin 2) * 5000 + 1 * p.val = 5000 * t.val + p.val; rw [e4]; omega
    | ⟨1, _⟩ => show win1_2.index t (1 : Fin 2) * 128 + 1 * q.val = q.val; rw [e5]; omega
  rw [View.read_apply, hemb]
  refine (congrFun (stored_eq _ _) (ix2 p q)).trans ?_
  unfold biased
  rw [addRowRect_apply, addRowRect_apply, a_block V c t p q ⟨5000 * t.val + p.val, by omega⟩ rfl, b_block V c t q]
  rfl

/-- An index of the result is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r lies in the block of point r / 5000: the ten blocks cover the result. -/
theorem cover (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  have hN : cfg1.N = 10 := rfl
  let t : Fin cfg1.N := ⟨(i 0).val / 5000, by rw [hN]; omega⟩
  obtain ⟨-, -, -, -, e4, e5⟩ := idx_facts t
  have htv : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 128 ≤ (i 1).val ∧ (i 1).val < win1_2.index t (1 : Fin 2) * 128 + 128; rw [e5]; omega

/-- After the region the result array holds the whole-array expression of the arrays the region found. -/
theorem final (c : Dev nD) : (dat1 V c).arrAt 2 cfg1.N = biased (V c main_v42) (V c main_v43) :=
  (dat1 V c).arrAt_eq_of_cover 2 (biased (V c main_v42) (V c main_v43)) (fun t _ => flushed_eq V c t) cover

end Cert.KernelIdeal.BiasOne

end
-- ==== Proof.BiasTwo.lean ====
/-
  The second layer's bias, ten row blocks of 5000 at a time.

  Each grid point t loads rows 5000·t … 5000·t + 4999 of the aggregated messages and the bias as a one-row
  matrix, adds the row to every loaded row, and writes the block back as the same rows of the
  result.  Entry (p, q) of a block is A(5000·t + p, q) + b(0, q), an expression of entry (5000·t + p, q) of the
  messages and entry (0, q) of the bias row only: the block is the same rows of the whole-array expression, and the
  ten blocks tile the result.
-/
import proofs.«157533_j84988812853883_1_alg».proof.Proof.Gen.KernelIdeal.Frame
import proofs.«157533_j84988812853883_1_alg».proof.Proof.LibBiasRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasTwo

open Cert.KernelIdeal Cert.KernelIdeal.Gen Cert.Proof.LibBiasRows

variable (V : (c : Dev nD) → (b : Ref sig .tc) → Buf (Elt Ideal) ((c : Thread nD τ).loc b))

theorem repeats : S1x64.BroadcastsInDim S50000x64 (![0, 1] : Fin 2 → Fin 2) := by decide
theorem repeatsBlock : S1x64.BroadcastsInDim S5000x64 (![0, 1] : Fin 2 → Fin 2) := by decide

/-- The whole-array expression: the bias row added to every row of the messages. -/
def biased (a : FVec Ideal S50000x64 .f32) (b : FVec Ideal S1x64 .f32) : FVec Ideal S50000x64 .f32 :=
  addRow repeats a b

/-- What one grid point stores is the same expression of its loaded blocks. -/
theorem stored_eq (x0 : Vec Ideal S5000x64 .f32) (x1 : Vec Ideal S1x64 .f32) :
    k3_pay1 (F := Ideal) x0 x1 = addRow repeatsBlock x0 x1 := by
  unfold k3_pay1
  exact body_addRow shapeCasts_S5000x64_S5000x64 shapeCasts_S1x64_S1x64 broadcasts_S1x64_S5000x64 repeatsBlock x0 x1

theorem hz : (![0, 0] : Fin 2 → Nat) = fun _ => 0 := funext fun a => by fin_cases a <;> rfl

/-- The printed index maps over the grid: the row-block index is the point, every other block index is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the messages' block at point t is row 5000·t + p of the messages. -/
theorem a_block (c : Dev nD) (t : Fin cfg3.N) (p : Fin 5000) (q : Fin 64) (r : Fin 50000) (hr : r.val = 5000 * t.val + p.val) :
    iblk3 V c 0 t (ix2 p q) = (V c main_v57 : FVec Ideal S50000x64 .f32) (ix2 r q) := by
  obtain ⟨e0, e1, -, -, -, -⟩ := idx_facts t
  unfold iblk3
  rw [View.read_apply]
  show (V c main_v57 : FVec Ideal S50000x64 .f32) _ = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The bias row's block at every point is the whole row. -/
theorem b_block (c : Dev nD) (t : Fin cfg3.N) (q : Fin 64) :
    iblk3 V c 1 t (ix2 (0 : Fin 1) q) = (V c main_v58 : FVec Ideal S1x64 .f32) (ix2 (0 : Fin 1) q) := by
  obtain ⟨-, -, e2, e3, -, -⟩ := idx_facts t
  unfold iblk3
  rw [View.read_apply]
  show (V c main_v58 : FVec Ideal S1x64 .f32) _ = _
  refine congrArg _ (funext fun a => Fin.ext ?_)
  match a with
  | ⟨0, _⟩ => show win3_1.index t (0 : Fin 2) * 1 + 1 * 0 = 0; rw [e2]
  | ⟨1, _⟩ => show win3_1.index t (1 : Fin 2) * 64 + 1 * q.val = q.val; rw [e3]; omega

/-- What point t writes back is block t of the whole-array expression of the arrays the region finds. -/
theorem flushed_eq (c : Dev nD) (t : Fin cfg3.N) :
    (dat3 V c).flushed 2 t = ((cfg3.win 2).blk t).view.read (Elt Ideal) (biased (V c main_v57) (V c main_v58)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx_facts t
  funext j
  obtain ⟨p, q, rfl⟩ : ∃ (p : Fin 5000) (q : Fin 64), j = ix2 p q := ⟨j 0, j 1, eq_ix2 j⟩
  have ht : t.val < 10 := t.isLt
  have hp : p.val < 5000 := p.isLt
  have hemb : ((cfg3.win 2).blk t).view.emb (ix2 p q) = (ix2 (⟨5000 * t.val + p.val, by omega⟩ : Fin 50000) q : S50000x64.Idx) := by
    funext a; apply Fin.ext
    match a with
    | ⟨0, _⟩ => show win3_2.index t (0 : Fin 2) * 5000 + 1 * p.val = 5000 * t.val + p.val; rw [e4]; omega
    | ⟨1, _⟩ => show win3_2.index t (1 : Fin 2) * 64 + 1 * q.val = q.val; rw [e5]; omega
  rw [View.read_apply, hemb]
  refine (congrFun (stored_eq _ _) (ix2 p q)).trans ?_
  unfold biased
  rw [addRow_apply, addRow_apply, a_block V c t p q ⟨5000 * t.val + p.val, by omega⟩ rfl, b_block V c t q]
  rfl

/-- An index of the result is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- Row r lies in the block of point r / 5000: the ten blocks cover the result. -/
theorem cover (i : S50000x64.Idx) : ∃ t : Fin cfg3.N, (cfg3.win 2).flush t = true ∧ i ∈ ((cfg3.win 2).blk t).view.set := by
  have h0 : (i 0).val < 50000 := (i 0).isLt
  have h1 : (i 1).val < 64 := (i 1).isLt
  have hN : cfg3.N = 10 := rfl
  let t : Fin cfg3.N := ⟨(i 0).val / 5000, by rw [hN]; omega⟩
  obtain ⟨-, -, -, -, e4, e5⟩ := idx_facts t
  have htv : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, htv]; omega
  | ⟨1, _⟩ => show win3_2.index t (1 : Fin 2) * 64 ≤ (i 1).val ∧ (i 1).val < win3_2.index t (1 : Fin 2) * 64 + 64; rw [e5]; omega

/-- After the region the result array holds the whole-array expression of the arrays the region found. -/
theorem final (c : Dev nD) : (dat3 V c).arrAt 2 cfg3.N = biased (V c main_v57) (V c main_v58) :=
  (dat3 V c).arrAt_eq_of_cover 2 (biased (V c main_v57) (V c main_v58)) (fun t _ => flushed_eq V c t) cover

end Cert.KernelIdeal.BiasTwo

end
-- ==== Proof.HostStages.lean ====
/-
  The host's three stretches of the kernel program, each as functions of what it finds in the buffers it reads.

  Before the first product the host builds, from the edge list, the source and destination of every edge followed
  by a self-loop per node, the nodes' degrees (ones scattered onto the destinations), their inverse square roots
  (of the degree or one, whichever is larger), and per edge the product of the two ends' inverse square roots as a
  column.  After each product it gathers the product's rows at the sources (a negative index wrapped by the node
  count), scales row e by the edge's weight and adds the rows up per destination, and reshapes the layer's bias to
  a one-row matrix.  These are, operation for operation, the stages of the reference program over the same edge
  list, so each buffer a stretch writes is the reference's stage of the buffers the stretch reads.
-/
import proofs.«157533_j84988812853883_1_alg».proof.Proof.Gen.KernelIdeal.Launch
import proofs.«157533_j84988812853883_1_alg».proof.Proof.Gen.ReferenceIdeal.Read
import proofs.«157533_j84988812853883_1_alg».proof.Proof.LibHostForms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen

variable (X : Valuation τ sig (Elt Ideal))

/-! ## Before the first product -/

/-- The sources: the edge list's first row, then every node. -/
theorem sources : StableHlo.after hostOps0 X (Proc.devRef .tc main_v3) = Cert.ReferenceIdeal.Read.val_main_v3 (F := Ideal) (X (Proc.devRef .tc main_arg1)) := by
  after_results_simp
  rfl

/-- The destinations: the edge list's second row, then every node. -/
theorem dests : StableHlo.after hostOps0 X (Proc.devRef .tc main_v6) = Cert.ReferenceIdeal.Read.val_main_v6 (F := Ideal) (X (Proc.devRef .tc main_arg1)) := by
  after_results_simp
  rfl

/-- The edge weights as a column. -/
theorem weights : StableHlo.after hostOps0 X (Proc.devRef .tc main_v29) = Cert.ReferenceIdeal.Read.val_main_v37 (F := Ideal) (X (Proc.devRef .tc main_arg1)) := by
  after_results_simp
  rfl

/-! ## After each product -/

/-- Rows of `hw` gathered at the sources (a negative index wrapped by the node count), row e scaled by weight e,
    and the scaled rows added up per destination: 128 columns. -/
def gatherScaleAdd128 (s d : (⟨S850000, .i32⟩ : BufTy).Contents (Elt Ideal)) (w : (⟨S850000x1, .f32⟩ : BufTy).Contents (Elt Ideal)) (hw : (⟨S50000x128, .f32⟩ : BufTy).Contents (Elt Ideal)) : (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf (Host.gather gather_S50000x128_S850000x1_S850000x128_1_0_n_n_0_1_1128 hw
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      (broadcastInDim S850000x128 ![0, 1] bcast_S850000x1_S850000x128_0_1 w))

/-- Rows of `hw` gathered at the sources (a negative index wrapped by the node count), row e scaled by weight e,
    and the scaled rows added up per destination: 64 columns. -/
def gatherScaleAdd64 (s d : (⟨S850000, .i32⟩ : BufTy).Contents (Elt Ideal)) (w : (⟨S850000x1, .f32⟩ : BufTy).Contents (Elt Ideal)) (hw : (⟨S50000x64, .f32⟩ : BufTy).Contents (Elt Ideal)) : (⟨S50000x64, .f32⟩ : BufTy).Contents (Elt Ideal) :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf (Host.gather gather_S50000x64_S850000x1_S850000x64_1_0_n_n_0_1_164 hw
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      (broadcastInDim S850000x64 ![0, 1] bcast_S850000x1_S850000x64_0_1 w))

/-- The stretch after the first product leaves the first layer's messages, aggregated, in its result buffer. -/
theorem aggregated1 : StableHlo.after hostOps1 X (Proc.devRef .tc main_v42)
    = gatherScaleAdd128 (X (Proc.devRef .tc main_v3)) (X (Proc.devRef .tc main_v6)) (X (Proc.devRef .tc main_v29)) (X (Proc.devRef .tc main_v30)) := by
  after_results_simp
  rfl

/-- and the first bias as a one-row matrix. -/
theorem biasRow1 : StableHlo.after hostOps1 X (Proc.devRef .tc main_v43)
    = shapeCast S1x128 (X (Proc.devRef .tc main_arg3) : (⟨S128, .f32⟩ : BufTy).Contents (Elt Ideal)) shapeCasts_S128_S1x128 := by
  after_results_simp
  rfl

/-- The stretch after the second product leaves the second layer's messages, aggregated, in its result buffer. -/
theorem aggregated2 : StableHlo.after hostOps3 X (Proc.devRef .tc main_v57)
    = gatherScaleAdd64 (X (Proc.devRef .tc main_v3)) (X (Proc.devRef .tc main_v6)) (X (Proc.devRef .tc main_v29)) (X (Proc.devRef .tc main_v45)) := by
  after_results_simp
  rfl

/-- and the second bias as a one-row matrix. -/
theorem biasRow2 : StableHlo.after hostOps3 X (Proc.devRef .tc main_v58)
    = shapeCast S1x64 (X (Proc.devRef .tc main_arg5) : (⟨S64, .f32⟩ : BufTy).Contents (Elt Ideal)) shapeCasts_S64_S1x64 := by
  after_results_simp
  rfl

/-! ## What a stretch does not write it leaves alone -/

theorem keeps0_main_arg0 : StableHlo.after hostOps0 X (Proc.devRef .tc main_arg0) = X (Proc.devRef .tc main_arg0) := by
  after_results_simp
theorem keeps0_main_arg2 : StableHlo.after hostOps0 X (Proc.devRef .tc main_arg2) = X (Proc.devRef .tc main_arg2) := by
  after_results_simp
theorem keeps0_main_arg3 : StableHlo.after hostOps0 X (Proc.devRef .tc main_arg3) = X (Proc.devRef .tc main_arg3) := by
  after_results_simp
theorem keeps0_main_arg4 : StableHlo.after hostOps0 X (Proc.devRef .tc main_arg4) = X (Proc.devRef .tc main_arg4) := by
  after_results_simp
theorem keeps0_main_arg5 : StableHlo.after hostOps0 X (Proc.devRef .tc main_arg5) = X (Proc.devRef .tc main_arg5) := by
  after_results_simp
theorem keeps1_main_v3 : StableHlo.after hostOps1 X (Proc.devRef .tc main_v3) = X (Proc.devRef .tc main_v3) := by
  after_results_simp
theorem keeps1_main_v6 : StableHlo.after hostOps1 X (Proc.devRef .tc main_v6) = X (Proc.devRef .tc main_v6) := by
  after_results_simp
theorem keeps1_main_v29 : StableHlo.after hostOps1 X (Proc.devRef .tc main_v29) = X (Proc.devRef .tc main_v29) := by
  after_results_simp
theorem keeps1_main_arg4 : StableHlo.after hostOps1 X (Proc.devRef .tc main_arg4) = X (Proc.devRef .tc main_arg4) := by
  after_results_simp
theorem keeps1_main_arg5 : StableHlo.after hostOps1 X (Proc.devRef .tc main_arg5) = X (Proc.devRef .tc main_arg5) := by
  after_results_simp

/-! ## The reference's stages in the same words -/

theorem ref_aggregated1 (x0 : (⟨S50000x128, .f32⟩ : BufTy).Contents (Elt Ideal)) (e : (⟨S2x800000, .i32⟩ : BufTy).Contents (Elt Ideal)) (x2 : (⟨S128x128, .f32⟩ : BufTy).Contents (Elt Ideal)) :
    Cert.ReferenceIdeal.Read.val_main_v42 (F := Ideal) x0 e x2
      = gatherScaleAdd128 (Cert.ReferenceIdeal.Read.val_main_v3 (F := Ideal) e) (Cert.ReferenceIdeal.Read.val_main_v6 (F := Ideal) e) (Cert.ReferenceIdeal.Read.val_main_v37 (F := Ideal) e)
          (Cert.ReferenceIdeal.Read.val_main_v29 (F := Ideal) x0 x2) := rfl

theorem ref_aggregated2 (x0 : (⟨S50000x128, .f32⟩ : BufTy).Contents (Elt Ideal)) (e : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal)) :
    Cert.ReferenceIdeal.Read.val_main_v60 (F := Ideal) x0 e x2 x3 x4
      = gatherScaleAdd64 (Cert.ReferenceIdeal.Read.val_main_v3 (F := Ideal) e) (Cert.ReferenceIdeal.Read.val_main_v6 (F := Ideal) e) (Cert.ReferenceIdeal.Read.val_main_v37 (F := Ideal) e)
          (Cert.ReferenceIdeal.Read.val_main_v47 (F := Ideal) x0 e x2 x3 x4) := rfl

end Cert.KernelIdeal.Stages

end
-- ==== Proof.Network.lean ====
/-
  The two-layer graph convolution as one expression of its six arguments.

  With s, d the sources and destinations of the edges (each edge of the list, then a self-loop per node) and w the
  edge weights (the product of the two ends' inverse square-root degrees), a layer takes rows H to
  Σ_{e : d(e) = r} w(e) · (H · W)(s(e), ·) + b; the network is the second layer applied to the rectified first.
-/
import proofs.«157533_j84988812853883_1_alg».proof.Proof.DenseOne
import proofs.«157533_j84988812853883_1_alg».proof.Proof.DenseTwo
import proofs.«157533_j84988812853883_1_alg».proof.Proof.BiasOne
import proofs.«157533_j84988812853883_1_alg».proof.Proof.BiasTwo
import proofs.«157533_j84988812853883_1_alg».proof.Proof.HostStages

set_option maxRecDepth 16384

noncomputable section

open Idealize.ShloMosaic Idealize.ShloMosaic.TcCoe Idealize.SL.Sem

namespace Cert.KernelIdeal.Whole

open Cert.KernelIdeal Cert.KernelIdeal.Gen

/-- The two-layer network's output as one expression of the arguments: features `x0`, edge list `e`, weights
    `x2`, `x4`, biases `x3`, `x5`. -/
def network (x0 : (⟨S50000x128, .f32⟩ : BufTy).Contents (Elt Ideal)) (e : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal)) (x5 : (⟨S64, .f32⟩ : BufTy).Contents (Elt Ideal)) : (⟨S50000x64, .f32⟩ : BufTy).Contents (Elt Ideal) :=
  BiasTwo.biased
    (Stages.gatherScaleAdd64 (Cert.ReferenceIdeal.Read.val_main_v3 (F := Ideal) e) (Cert.ReferenceIdeal.Read.val_main_v6 (F := Ideal) e) (Cert.ReferenceIdeal.Read.val_main_v37 (F := Ideal) e)
      (DenseTwo.prod
        (BiasOne.biased
          (Stages.gatherScaleAdd128 (Cert.ReferenceIdeal.Read.val_main_v3 (F := Ideal) e) (Cert.ReferenceIdeal.Read.val_main_v6 (F := Ideal) e) (Cert.ReferenceIdeal.Read.val_main_v37 (F := Ideal) e)
            (DenseOne.prod x0 x2))
          (shapeCast S1x128 x3 shapeCasts_S128_S1x128))
        x4))
    (shapeCast S1x64 x5 shapeCasts_S64_S1x64)

end Cert.KernelIdeal.Whole

end
-- ==== Proof.KernelValue.lean ====
/-
  What the idealized kernel's result buffer holds at the end, as one expression of the six arguments.

  Walking the program's segments backwards from the result: the last region leaves the second layer's aggregated
  messages plus the second bias row; those messages are the host's gather / scale / scatter-add of the second
  product; that product is the rectified, biased first layer times the second weight matrix; the first layer's
  aggregated messages are the same gather / scale / scatter-add of the first product, the features times the first
  weight matrix.  The edge lists and the edge weights every stretch reads are the ones the first stretch computed
  from the edge-list argument, and every argument array is read as launched, because no segment in between writes
  those buffers.
-/
import proofs.«157533_j84988812853883_1_alg».proof.Proof.Gen.KernelIdeal.Frame
import proofs.«157533_j84988812853883_1_alg».proof.Proof.Network

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-! ## The arguments, read at each segment boundary -/

theorem arg0_at1 (c : Dev nD) : W1 m ρ c (Proc.devRef .tc main_arg0) = m ((c : Thread nD τ).loc main_arg0) :=
  Stages.keeps0_main_arg0 (W0 m ρ c)
theorem arg2_at1 (c : Dev nD) : W1 m ρ c (Proc.devRef .tc main_arg2) = m ((c : Thread nD τ).loc main_arg2) :=
  Stages.keeps0_main_arg2 (W0 m ρ c)
theorem arg3_at1 (c : Dev nD) : W1 m ρ c (Proc.devRef .tc main_arg3) = m ((c : Thread nD τ).loc main_arg3) :=
  Stages.keeps0_main_arg3 (W0 m ρ c)
theorem arg4_at1 (c : Dev nD) : W1 m ρ c (Proc.devRef .tc main_arg4) = m ((c : Thread nD τ).loc main_arg4) :=
  Stages.keeps0_main_arg4 (W0 m ρ c)
theorem arg5_at1 (c : Dev nD) : W1 m ρ c (Proc.devRef .tc main_arg5) = m ((c : Thread nD τ).loc main_arg5) :=
  Stages.keeps0_main_arg5 (W0 m ρ c)

theorem arg3_at2 (c : Dev nD) : W2 m ρ c (Proc.devRef .tc main_arg3) = m ((c : Thread nD τ).loc main_arg3) :=
  (W2_of_ne m ρ c main_arg3 (by decide)).trans (arg3_at1 m ρ c)
theorem arg4_at2 (c : Dev nD) : W2 m ρ c (Proc.devRef .tc main_arg4) = m ((c : Thread nD τ).loc main_arg4) :=
  (W2_of_ne m ρ c main_arg4 (by decide)).trans (arg4_at1 m ρ c)
theorem arg5_at2 (c : Dev nD) : W2 m ρ c (Proc.devRef .tc main_arg5) = m ((c : Thread nD τ).loc main_arg5) :=
  (W2_of_ne m ρ c main_arg5 (by decide)).trans (arg5_at1 m ρ c)

theorem arg4_at4 (c : Dev nD) : W4 m ρ c (Proc.devRef .tc main_arg4) = m ((c : Thread nD τ).loc main_arg4) :=
  (W4_of_ne m ρ c main_arg4 (by decide)).trans ((Stages.keeps1_main_arg4 (W2 m ρ c)).trans (arg4_at2 m ρ c))
theorem arg5_at5 (c : Dev nD) : W5 m ρ c (Proc.devRef .tc main_arg5) = m ((c : Thread nD τ).loc main_arg5) :=
  (W5_of_ne m ρ c main_arg5 (by decide)).trans ((W4_of_ne m ρ c main_arg5 (by decide)).trans
    ((Stages.keeps1_main_arg5 (W2 m ρ c)).trans (arg5_at2 m ρ c)))

/-! ## The edge lists and weights, read at each segment boundary -/

theorem sources_at2 (c : Dev nD) : W2 m ρ c (Proc.devRef .tc main_v3) = Cert.ReferenceIdeal.Read.val_main_v3 (F := Ideal) (m ((c : Thread nD τ).loc main_arg1)) :=
  (W2_of_ne m ρ c main_v3 (by decide)).trans (Stages.sources (W0 m ρ c))
theorem dests_at2 (c : Dev nD) : W2 m ρ c (Proc.devRef .tc main_v6) = Cert.ReferenceIdeal.Read.val_main_v6 (F := Ideal) (m ((c : Thread nD τ).loc main_arg1)) :=
  (W2_of_ne m ρ c main_v6 (by decide)).trans (Stages.dests (W0 m ρ c))
theorem weights_at2 (c : Dev nD) : W2 m ρ c (Proc.devRef .tc main_v29) = Cert.ReferenceIdeal.Read.val_main_v37 (F := Ideal) (m ((c : Thread nD τ).loc main_arg1)) :=
  (W2_of_ne m ρ c main_v29 (by decide)).trans (Stages.weights (W0 m ρ c))

theorem sources_at5 (c : Dev nD) : W5 m ρ c (Proc.devRef .tc main_v3) = Cert.ReferenceIdeal.Read.val_main_v3 (F := Ideal) (m ((c : Thread nD τ).loc main_arg1)) :=
  (W5_of_ne m ρ c main_v3 (by decide)).trans ((W4_of_ne m ρ c main_v3 (by decide)).trans
    ((Stages.keeps1_main_v3 (W2 m ρ c)).trans (sources_at2 m ρ c)))
theorem dests_at5 (c : Dev nD) : W5 m ρ c (Proc.devRef .tc main_v6) = Cert.ReferenceIdeal.Read.val_main_v6 (F := Ideal) (m ((c : Thread nD τ).loc main_arg1)) :=
  (W5_of_ne m ρ c main_v6 (by decide)).trans ((W4_of_ne m ρ c main_v6 (by decide)).trans
    ((Stages.keeps1_main_v6 (W2 m ρ c)).trans (dests_at2 m ρ c)))
theorem weights_at5 (c : Dev nD) : W5 m ρ c (Proc.devRef .tc main_v29) = Cert.ReferenceIdeal.Read.val_main_v37 (F := Ideal) (m ((c : Thread nD τ).loc main_arg1)) :=
  (W5_of_ne m ρ c main_v29 (by decide)).trans ((W4_of_ne m ρ c main_v29 (by decide)).trans
    ((Stages.keeps1_main_v29 (W2 m ρ c)).trans (weights_at2 m ρ c)))

/-! ## The four regions' results and the stretches between them -/

/-- The first product. -/
theorem product1 (c : Dev nD) : W2 m ρ c (Proc.devRef .tc main_v30)
    = DenseOne.prod (m ((c : Thread nD τ).loc main_arg0)) (m ((c : Thread nD τ).loc main_arg2)) := by
  refine (W2_arr m ρ c 2).trans ((DenseOne.final (V1 m ρ) c).trans ?_)
  show DenseOne.prod (W1 m ρ c (Proc.devRef .tc main_arg0)) (W1 m ρ c (Proc.devRef .tc main_arg2)) = _
  rw [arg0_at1, arg2_at1]

/-- The first layer's aggregated messages. -/
theorem messages1 (c : Dev nD) : W3 m ρ c (Proc.devRef .tc main_v42)
    = Stages.gatherScaleAdd128 (Cert.ReferenceIdeal.Read.val_main_v3 (F := Ideal) (m ((c : Thread nD τ).loc main_arg1)))
        (Cert.ReferenceIdeal.Read.val_main_v6 (F := Ideal) (m ((c : Thread nD τ).loc main_arg1))) (Cert.ReferenceIdeal.Read.val_main_v37 (F := Ideal) (m ((c : Thread nD τ).loc main_arg1)))
        (DenseOne.prod (m ((c : Thread nD τ).loc main_arg0)) (m ((c : Thread nD τ).loc main_arg2))) := by
  refine (Stages.aggregated1 (W2 m ρ c)).trans ?_
  rw [sources_at2, dests_at2, weights_at2, product1]

/-- The first bias as a row. -/
theorem row1 (c : Dev nD) : W3 m ρ c (Proc.devRef .tc main_v43) = shapeCast S1x128 (m ((c : Thread nD τ).loc main_arg3)) shapeCasts_S128_S1x128 := by
  refine (Stages.biasRow1 (W2 m ρ c)).trans ?_
  rw [arg3_at2]

/-- The hidden features: the first layer, biased and rectified. -/
theorem hidden (c : Dev nD) : W4 m ρ c (Proc.devRef .tc main_v44)
    = BiasOne.biased (W3 m ρ c (Proc.devRef .tc main_v42)) (W3 m ρ c (Proc.devRef .tc main_v43)) :=
  (W4_arr m ρ c 2).trans (BiasOne.final (V3 m ρ) c)

/-- The second product. -/
theorem product2 (c : Dev nD) : W5 m ρ c (Proc.devRef .tc main_v45)
    = DenseTwo.prod (W4 m ρ c (Proc.devRef .tc main_v44)) (m ((c : Thread nD τ).loc main_arg4)) := by
  refine (W5_arr m ρ c 2).trans ((DenseTwo.final (V4 m ρ) c).trans ?_)
  show DenseTwo.prod (W4 m ρ c (Proc.devRef .tc main_v44)) (W4 m ρ c (Proc.devRef .tc main_arg4)) = _
  rw [arg4_at4]

/-- The second layer's aggregated messages. -/
theorem messages2 (c : Dev nD) : W6 m ρ c (Proc.devRef .tc main_v57)
    = Stages.gatherScaleAdd64 (Cert.ReferenceIdeal.Read.val_main_v3 (F := Ideal) (m ((c : Thread nD τ).loc main_arg1)))
        (Cert.ReferenceIdeal.Read.val_main_v6 (F := Ideal) (m ((c : Thread nD τ).loc main_arg1))) (Cert.ReferenceIdeal.Read.val_main_v37 (F := Ideal) (m ((c : Thread nD τ).loc main_arg1)))
        (W5 m ρ c (Proc.devRef .tc main_v45)) := by
  refine (Stages.aggregated2 (W5 m ρ c)).trans ?_
  rw [sources_at5, dests_at5, weights_at5]

/-- The second bias as a row. -/
theorem row2 (c : Dev nD) : W6 m ρ c (Proc.devRef .tc main_v58) = shapeCast S1x64 (m ((c : Thread nD τ).loc main_arg5)) shapeCasts_S64_S1x64 := by
  refine (Stages.biasRow2 (W5 m ρ c)).trans ?_
  rw [arg5_at5]

/-- THE RESULT: at the last segment boundary the result buffer holds the network's output of the arguments. -/
theorem result (c : Dev nD) : W7 m ρ c (Proc.devRef .tc main_v59)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 2).trans ((BiasTwo.final (V6 m ρ) c).trans ?_)
  show BiasTwo.biased (W6 m ρ c (Proc.devRef .tc main_v57)) (W6 m ρ c (Proc.devRef .tc main_v58)) = _
  rw [messages2, row2, product2, hidden, messages1, row1]
  rfl

end Cert.KernelIdeal.Whole

end
-- ==== Proof.RefValue.lean ====
/-
  The reference program's result is the same expression of the arguments.

  Stage by stage the reference computes: the product of the features with the first weights; the gather / scale /
  scatter-add of its rows over the edges; the first bias, made a row by a broadcast and repeated down the rows, added;
  the maximum with a zero matrix; the product with the second weights; the same gather / scale / scatter-add; the
  second bias row added.  A vector made a one-row matrix by a broadcast along the row axis is the vector reshaped to
  that row, which is how the kernel program spells the bias rows; everything else is the network's expression word
  for word.
-/
import proofs.«157533_j84988812853883_1_alg».proof.Proof.Network
import proofs.«157533_j84988812853883_1_alg».proof.Proof.LibHostForms

set_option maxRecDepth 16384

noncomputable section

open Idealize.ShloMosaic Idealize.ShloMosaic.TcCoe Idealize.SL.Sem

namespace Cert.KernelIdeal.Whole

open Cert.KernelIdeal Cert.KernelIdeal.Gen

theorem reference_eq (x0 : (⟨S50000x128, .f32⟩ : BufTy).Contents (Elt Ideal)) (e : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal)) (x5 : (⟨S64, .f32⟩ : BufTy).Contents (Elt Ideal)) :
    Cert.ReferenceIdeal.Read.val_main_v63 (F := Ideal) x0 e x2 x3 x4 x5 = network x0 e x2 x3 x4 x5 := by
  have h43 : Cert.ReferenceIdeal.Read.val_main_v43 (F := Ideal) x3 = shapeCast S1x128 x3 shapeCasts_S128_S1x128 :=
    (Cert.Proof.LibHostForms.asRow_eq_broadcast' shapeCasts_S128_S1x128 x3).symm
  have h61 : Cert.ReferenceIdeal.Read.val_main_v61 (F := Ideal) x5 = shapeCast S1x64 x5 shapeCasts_S64_S1x64 :=
    (Cert.Proof.LibHostForms.asRow_eq_broadcast' shapeCasts_S64_S1x64 x5).symm
  have hout : Cert.ReferenceIdeal.Read.val_main_v63 (F := Ideal) x0 e x2 x3 x4 x5
      = BiasTwo.biased (Cert.ReferenceIdeal.Read.val_main_v60 (F := Ideal) x0 e x2 x3 x4) (Cert.ReferenceIdeal.Read.val_main_v61 (F := Ideal) x5) := rfl
  have hprod2 : Cert.ReferenceIdeal.Read.val_main_v47 (F := Ideal) x0 e x2 x3 x4
      = DenseTwo.prod (Cert.ReferenceIdeal.Read.val_main_v46 (F := Ideal) x0 e x2 x3) x4 := rfl
  have hhid : Cert.ReferenceIdeal.Read.val_main_v46 (F := Ideal) x0 e x2 x3
      = BiasOne.biased (Cert.ReferenceIdeal.Read.val_main_v42 (F := Ideal) x0 e x2) (Cert.ReferenceIdeal.Read.val_main_v43 (F := Ideal) x3) := rfl
  have hprod1 : Cert.ReferenceIdeal.Read.val_main_v29 (F := Ideal) x0 x2 = DenseOne.prod x0 x2 := rfl
  unfold network
  rw [hout, Stages.ref_aggregated2, hprod2, hhid, Stages.ref_aggregated1, hprod1, h43, h61]

end Cert.KernelIdeal.Whole

end
-- ==== Proof.lean ====
/-
  A two-layer graph convolution on 50000 nodes and 800000 edges, computed by four tiled regions (two matrix products,
  two bias stages) among the host's gathers and scatter-adds, against the same network written with plain array
  operations.

  On the extended reals the two programs are the same expression of the six arguments.  The host's work on the edge
  list — sources and destinations with a self-loop per node, degrees, inverse square roots, edge weights, and after
  each product the gather of rows at the sources, the scaling by the weights and the sum per destination — is the
  same sequence of operations in both.  Each tiled product is the whole product, ten row blocks at a time: narrowing
  the operands is the identity, the zero accumulator adds nothing, and a block's entry is the sum over the contracted
  index of the same entries as the whole product's.  Each tiled bias stage adds the bias row to every row (and, after
  the first layer, takes the maximum with zero), block by block.  No step reorders a sum or moves a factor across
  one, so no finiteness of the inputs is used.

  The three programs run without fault and leave their arguments as launched; the idealization rewrote nothing, so
  there is nothing to preserve.
-/
import proofs.«157533_j84988812853883_1_alg».proof.Defs
import proofs.«157533_j84988812853883_1_alg».proof.Proof.Gen.Kernel
import proofs.«157533_j84988812853883_1_alg».proof.Proof.Gen.Kernel.Skeleton
import proofs.«157533_j84988812853883_1_alg».proof.Proof.Gen.Kernel.Launch
import proofs.«157533_j84988812853883_1_alg».proof.Proof.Gen.Kernel.Points
import proofs.«157533_j84988812853883_1_alg».proof.Proof.Gen.Kernel.Frame
import proofs.«157533_j84988812853883_1_alg».proof.Proof.Gen.KernelIdeal
import proofs.«157533_j84988812853883_1_alg».proof.Proof.Gen.KernelIdeal.Skeleton
import proofs.«157533_j84988812853883_1_alg».proof.Proof.Gen.KernelIdeal.Launch
import proofs.«157533_j84988812853883_1_alg».proof.Proof.Gen.KernelIdeal.Points
import proofs.«157533_j84988812853883_1_alg».proof.Proof.Gen.KernelIdeal.Frame
import proofs.«157533_j84988812853883_1_alg».proof.Proof.Gen.ReferenceIdeal
import proofs.«157533_j84988812853883_1_alg».proof.Proof.Gen.Pre_finite_inputs
import proofs.«157533_j84988812853883_1_alg».proof.Proof.Gen.ReferenceIdeal.Run
import proofs.«157533_j84988812853883_1_alg».proof.Proof.Gen.ReferenceIdeal.Read
import proofs.«157533_j84988812853883_1_alg».proof.Proof.KernelRun
import proofs.«157533_j84988812853883_1_alg».proof.Proof.KernelValue
import proofs.«157533_j84988812853883_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network's output of those arguments in their
    result buffers. -/
theorem algebraic : Cert.algebraic_KernelIdeal_ReferenceIdeal := by
  intro m ρ m' ρ' _ hagree
  refine ⟨fun c => Cert.KernelIdeal.Whole.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v63_eq, Cert.KernelIdeal.Whole.reference_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
